-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x128 .f32) (main_arg3 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S400x10000 : Shape := ⟨2, ![400, 10000]⟩
abbrev S400x128 : Shape := ⟨2, ![400, 128]⟩
abbrev S10000x256 : Shape := ⟨2, ![10000, 256]⟩
abbrev S256x128 : Shape := ⟨2, ![256, 128]⟩
abbrev S400x256 : Shape := ⟨2, ![400, 256]⟩

abbrev nBuf : Space → Nat
  | .hbm => 6
  | .vmem => 9
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S1x128, .f32⟩
  | .local _ .vmem, ⟨3, _⟩ => ⟨S400x10000, .f32⟩
  | .local _ .vmem, ⟨4, _⟩ => ⟨S400x10000, .f32⟩
  | .local _ .vmem, ⟨5, _⟩ => ⟨S400x128, .f32⟩
  | .local _ .vmem, ⟨6, _⟩ => ⟨S400x128, .f32⟩
  | .local _ .vmem, ⟨7, _⟩ => ⟨S10000x256, .bf16⟩
  | .local _ .vmem, ⟨8, _⟩ => ⟨S256x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S10000x256_S10000x128_0_0 : ∀ a, (![0, 0] : Fin 2 → Nat) a + S10000x128.size a ≤ S10000x256.size a
  shapeCasts_S10000x128_S10000x128 : S10000x128.ShapeCasts S10000x128
  packedbf16_S10000x256_S10000x128_0_0 : (Rect.unit (s := S10000x256) ![0, 0] S10000x128.size inb_S10000x256_S10000x128_0_0).PackedRows (EltTy.packing .bf16)
  iota_S10000x128_d1_w32 : S10000x128.Iotas .tc 32 [1]
  natLt_1_32 : 1 < 32
  inb_S10000x256_S10000x128_0_128 : ∀ a, (![0, 128] : Fin 2 → Nat) a + S10000x128.size a ≤ S10000x256.size a
  packedbf16_S10000x256_S10000x128_0_128 : (Rect.unit (s := S10000x256) ![0, 128] S10000x128.size inb_S10000x256_S10000x128_0_128).PackedRows (EltTy.packing .bf16)
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S256x128_S128x128_0_0 : ∀ a, (![0, 0] : Fin 2 → Nat) a + S128x128.size a ≤ S256x128.size a
  shapeCasts_S128x128_S128x128 : S128x128.ShapeCasts S128x128
  packedbf16_S256x128_S128x128_0_0 : (Rect.unit (s := S256x128) ![0, 0] S128x128.size inb_S256x128_S128x128_0_0).PackedRows (EltTy.packing .bf16)
  iota_S128x128_d0_w32 : S128x128.Iotas .tc 32 [0]
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S128x128 : S1x128.Broadcasts S128x128
  inb_S256x128_S128x128_128_0 : ∀ a, (![128, 0] : Fin 2 → Nat) a + S128x128.size a ≤ S256x128.size a
  packedbf16_S256x128_S128x128_128_0 : (Rect.unit (s := S256x128) ![128, 0] S128x128.size inb_S256x128_S128x128_128_0).PackedRows (EltTy.packing .bf16)
  inb_S400x10000_S400x10000_0_0 : ∀ a, (![0, 0] : Fin 2 → Nat) a + S400x10000.size a ≤ S400x10000.size a
  h_S400x10000 : 0 < S400x10000.numel
  inb_S10000x256_S10000x256_0_0 : ∀ a, (![0, 0] : Fin 2 → Nat) a + S10000x256.size a ≤ S10000x256.size a
  h_S10000x256 : 0 < S10000x256.numel
  inb_S256x128_S256x128_0_0 : ∀ a, (![0, 0] : Fin 2 → Nat) a + S256x128.size a ≤ S256x128.size a
  h_S256x128 : 0 < S256x128.numel
  inb_S400x128_S400x128_0_0 : ∀ a, (![0, 0] : Fin 2 → Nat) a + S400x128.size a ≤ S400x128.size a
  h_S400x128 : 0 < S400x128.numel
  dot_S400x10000_S10000x256_S400x256_1_0_0_1_n_n_wf : DotDims.WF S400x10000 S10000x256 S400x256 [1] [0] [0] [1] [] []
  dot_S400x256_S256x128_S400x128_1_0_0_1_n_n_wf : DotDims.WF S400x256 S256x128 S400x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x10000.size a ≤ S10000x10000.size a
  hwx0_3 : ∀ i : grid0.Coords, EltTy.bits .f32 = 32 ∨ (Rect.block (s := S10000x10000) S400x10000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .f32 = 32 ∨ (Rect.block (s := S10000x128) S400x128.size (cc0_transform_4 i) (hinb0_4 i)).WholeWords (EltTy.packing .f32)

variable [Facts₀]

def dot_S400x10000_S10000x256_S400x256_1_0_0_1_n_n : DotDims S400x10000 S10000x256 S400x256 where
  lhsContracting := [1]
  rhsContracting := [0]
  lhsNonContracting := [0]
  rhsNonContracting := [1]
  lhsBatch := []
  rhsBatch := []
  wf := dot_S400x10000_S10000x256_S400x256_1_0_0_1_n_n_wf
def dot_S400x256_S256x128_S400x128_1_0_0_1_n_n : DotDims S400x256 S256x128 S400x128 where
  lhsContracting := [1]
  rhsContracting := [0]
  lhsNonContracting := [0]
  rhsNonContracting := [1]
  lhsBatch := []
  rhsBatch := []
  wf := dot_S400x256_S256x128_S400x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S400x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S10000x128, .f32⟩
  | .hbm, ⟨6, _⟩ => ⟨S1x128, .f32⟩
  | .hbm, ⟨7, _⟩ => ⟨S10000x128, .f32⟩
  | .hbm, ⟨8, _⟩ => ⟨S10000x128, .f32⟩
  | .hbm, ⟨9, _⟩ => ⟨S10000x128, .f32⟩
  | .hbm, ⟨10, _⟩ => ⟨S_, .f32⟩
  | .hbm, ⟨11, _⟩ => ⟨S10000x128, .f32⟩
  | .hbm, ⟨12, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_cst : Ref sig .tc := ⟨.hbm, 10, rfl⟩
abbrev main_call0_v0 : Ref sig .tc := ⟨.hbm, 11, rfl⟩
abbrev main_v6 : Ref sig .tc := ⟨.hbm, 12, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.Pieces.lean ====
/-
  What one grid point of the idealized kernel leaves behind, as pure terms of the blocks it reads (any float instance).

  At the first point the body fills the two scratch buffers piece by piece — the widened features [x | e₀] as the left
  and right 10000×128 halves of a 10000×256 buffer, the widened weights [Wᵀ ; e₀ᵀ·b] as the upper and lower 128×128
  halves of a 256×128 buffer — and then reads both back whole; at every later point it reads what the first point left.
  At every point the output block is relu((adjacency block · features) · weights) of those two buffers.
-/
import proofs.«162712_g59227599011857_cont_9to1_m_754_15_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Layer

open Cert.KernelIdeal Cert.KernelIdeal.Gen

variable {F : FTy → Type} [FloatOps F]

theorem zero2 : (![0, 0] : Fin 2 → Nat) = fun _ => 0 := funext fun a => by fin_cases a <;> rfl

/-- The widened feature buffer after the first point: its right half the indicator column block, its left half the
    features. -/
def features (x0 : Vec F S10000x128 .f32) : Vec F S10000x256 .bf16 :=
  View.canon [⟨Rect.unit (s := S10000x256) ![0, 128] S10000x128.size inb_S10000x256_S10000x128_0_128, k0_pay2 (F := F)⟩,
    ⟨Rect.unit (s := S10000x256) ![0, 0] S10000x128.size inb_S10000x256_S10000x128_0_0, k0_pay1 x0⟩]

/-- The widened weight buffer after the first point: its lower half the bias row block, its upper half the transposed
    weights. -/
def weights (x1 : Vec F S128x128 .f32) (x2 : Vec F S1x128 .f32) : Vec F S256x128 .bf16 :=
  View.canon [⟨Rect.unit (s := S256x128) ![128, 0] S128x128.size inb_S256x128_S128x128_128_0, k0_pay4 x2⟩,
    ⟨Rect.unit (s := S256x128) ![0, 0] S128x128.size inb_S256x128_S128x128_0_0, k0_pay3 x1⟩]

/-- A load of a whole buffer after a list of stores reads what the stores left. -/
theorem readCov_whole {sig' : RefSig} {κ : Kind} {sp : Space} {S : Shape} {e : EltTy} (v : View sig' κ sp S e)
    (L : List (View.Piece (Elt F) S e)) {off : Fin S.rank → Nat} (h : off = fun _ => 0)
    (inb : ∀ a, off a + S.size a ≤ S.size a) :
    v.readCov L (Rect.unit off S.size inb).toLoadRect = View.canon L := by
  rw [View.readCov_eq_canon']
  exact View.ld_unit_zero h inb (View.canon L)

/-- The first point leaves the widened features in the first scratch buffer. -/
theorem first_features (c : Dev nD) (i : grid0.Coords) (a1 : Memref sig .tc .vmem S10000x128 .f32) (h1 : a1.IsWhole)
    (a2 : Memref sig .tc .vmem S128x128 .f32) (h2 : a2.IsWhole) (a3 : Memref sig .tc .vmem S1x128 .f32) (h3 : a3.IsWhole)
    (a4 : Memref sig .tc .vmem S400x10000 .f32) (h4 : a4.IsWhole) (a5 : Memref sig .tc .vmem S400x128 .f32) (h5 : a5.IsWhole)
    (a6 : Memref sig .tc .vmem S10000x256 .bf16) (h6 : a6.IsWhole) (a7 : Memref sig .tc .vmem S256x128 .bf16) (h7 : a7.IsWhole)
    (hc : cond0_0 i) (x0 : Vec F S10000x128 .f32) (x1 : Vec F S128x128 .f32) (x2 : Vec F S1x128 .f32) (x3 : Vec F S400x10000 .f32) :
    sout0_A_0 c i a1 h1 a2 h2 a3 h3 a4 h4 a5 h5 a6 h6 a7 h7 hc x0 x1 x2 x3 = features x0 := by
  unfold sout0_A_0
  rw [View.read_writes_eq_canon _ _ _ (scover0_A_0 c i a1 h1 a2 h2 a3 h3 a4 h4 a5 h5 a6 h6 a7 h7 hc x0 x1 x2 x3)]
  unfold kernelRun0_A
  dsimp only
  sl_unfold_words
  simp only [View.readAt_eq_ld, h1.read_unread, View.ld_unit_zero (S := S10000x128) zero2]
  rfl

/-- The first point leaves the widened weights in the second scratch buffer. -/
theorem first_weights (c : Dev nD) (i : grid0.Coords) (a1 : Memref sig .tc .vmem S10000x128 .f32) (h1 : a1.IsWhole)
    (a2 : Memref sig .tc .vmem S128x128 .f32) (h2 : a2.IsWhole) (a3 : Memref sig .tc .vmem S1x128 .f32) (h3 : a3.IsWhole)
    (a4 : Memref sig .tc .vmem S400x10000 .f32) (h4 : a4.IsWhole) (a5 : Memref sig .tc .vmem S400x128 .f32) (h5 : a5.IsWhole)
    (a6 : Memref sig .tc .vmem S10000x256 .bf16) (h6 : a6.IsWhole) (a7 : Memref sig .tc .vmem S256x128 .bf16) (h7 : a7.IsWhole)
    (hc : cond0_0 i) (x0 : Vec F S10000x128 .f32) (x1 : Vec F S128x128 .f32) (x2 : Vec F S1x128 .f32) (x3 : Vec F S400x10000 .f32) :
    sout0_A_1 c i a1 h1 a2 h2 a3 h3 a4 h4 a5 h5 a6 h6 a7 h7 hc x0 x1 x2 x3 = weights x1 x2 := by
  unfold sout0_A_1
  rw [View.read_writes_eq_canon _ _ _ (scover0_A_1 c i a1 h1 a2 h2 a3 h3 a4 h4 a5 h5 a6 h6 a7 h7 hc x0 x1 x2 x3)]
  unfold kernelRun0_A
  dsimp only
  sl_unfold_words
  simp only [View.readAt_eq_ld, h2.read_unread, h3.read_unread, View.ld_unit_zero (S := S128x128) zero2,
    View.ld_unit_zero (S := S1x128) zero2]
  rfl

/-- The first point's output block: the two products and the positive part, over the buffers it has just filled. -/
theorem first_out (c : Dev nD) (i : grid0.Coords) (a1 : Memref sig .tc .vmem S10000x128 .f32) (h1 : a1.IsWhole)
    (a2 : Memref sig .tc .vmem S128x128 .f32) (h2 : a2.IsWhole) (a3 : Memref sig .tc .vmem S1x128 .f32) (h3 : a3.IsWhole)
    (a4 : Memref sig .tc .vmem S400x10000 .f32) (h4 : a4.IsWhole) (a5 : Memref sig .tc .vmem S400x128 .f32) (h5 : a5.IsWhole)
    (a6 : Memref sig .tc .vmem S10000x256 .bf16) (h6 : a6.IsWhole) (a7 : Memref sig .tc .vmem S256x128 .bf16) (h7 : a7.IsWhole)
    (hc : cond0_0 i) (x0 : Vec F S10000x128 .f32) (x1 : Vec F S128x128 .f32) (x2 : Vec F S1x128 .f32) (x3 : Vec F S400x10000 .f32) :
    out0_A_4 c i a1 h1 a2 h2 a3 h3 a4 h4 a5 h5 a6 h6 a7 h7 hc x0 x1 x2 x3 = k0_pay5 x3 (features x0) (weights x1 x2) := by
  unfold out0_A_4
  rw [View.read_writes_eq_canon _ _ _ (cover0_A_4 c i a1 h1 a2 h2 a3 h3 a4 h4 a5 h5 a6 h6 a7 h7 hc x0 x1 x2 x3)]
  unfold kernelRun0_A
  dsimp only
  sl_unfold_words
  rw [View.canon_unit_zero (S := S400x128) zero2]
  rw [readCov_whole (S := S10000x256) _ _ zero2, readCov_whole (S := S256x128) _ _ zero2]
  simp only [View.readAt_eq_ld, h1.read_unread, h2.read_unread, h3.read_unread, h4.read_unread,
    View.ld_unit_zero (S := S10000x128) zero2, View.ld_unit_zero (S := S128x128) zero2,
    View.ld_unit_zero (S := S1x128) zero2, View.ld_unit_zero (S := S400x10000) zero2]
  rfl

/-- A later point's output block: the same two products, over the buffers as the point before left them. -/
theorem later_out (c : Dev nD) (i : grid0.Coords) (a1 : Memref sig .tc .vmem S10000x128 .f32) (h1 : a1.IsWhole)
    (a2 : Memref sig .tc .vmem S128x128 .f32) (h2 : a2.IsWhole) (a3 : Memref sig .tc .vmem S1x128 .f32) (h3 : a3.IsWhole)
    (a4 : Memref sig .tc .vmem S400x10000 .f32) (h4 : a4.IsWhole) (a5 : Memref sig .tc .vmem S400x128 .f32) (h5 : a5.IsWhole)
    (a6 : Memref sig .tc .vmem S10000x256 .bf16) (h6 : a6.IsWhole) (a7 : Memref sig .tc .vmem S256x128 .bf16) (h7 : a7.IsWhole)
    (hc : ¬cond0_0 i) (x0 : Vec F S10000x128 .f32) (x1 : Vec F S128x128 .f32) (x2 : Vec F S1x128 .f32) (x3 : Vec F S400x10000 .f32)
    (xs0 : Vec F S10000x256 .bf16) (xs1 : Vec F S256x128 .bf16) :
    out0_B_4 c i a1 h1 a2 h2 a3 h3 a4 h4 a5 h5 a6 h6 a7 h7 hc x0 x1 x2 x3 xs0 xs1 = k0_pay5 x3 xs0 xs1 := by
  unfold out0_B_4
  rw [View.read_writes_eq_canon _ _ _ (cover0_B_4 c i a1 h1 a2 h2 a3 h3 a4 h4 a5 h5 a6 h6 a7 h7 hc x0 x1 x2 x3 xs0 xs1)]
  unfold kernelRun0_B
  dsimp only
  rw [View.canon_unit_zero (S := S400x128) zero2]
  simp only [View.readAt_eq_ld, h4.read_unread, h6.read_unread, h7.read_unread,
    View.ld_unit_zero (S := S400x10000) zero2, View.ld_unit_zero (S := S10000x256) zero2,
    View.ld_unit_zero (S := S256x128) zero2]

end Cert.KernelIdeal.Layer

end
-- ==== Proof.Sweep.lean ====
/-
  The sweep over the grid: after EVERY point the two scratch buffers hold the widened operands the first point built
  from the whole feature, weight and bias arrays, and the point's output block is relu((its adjacency block · widened
  features) · widened weights). By induction on the point: the first point builds the buffers, each later point finds
  them as the point before left them and does not store into them.
-/
import proofs.«162712_g59227599011857_cont_9to1_m_754_15_alg».proof.Proof.Pieces

set_option maxRecDepth 16384

noncomputable section

open Idealize.ShloMosaic Idealize.ShloMosaic.TcCoe Idealize.SL.Sem

namespace Cert.KernelIdeal.Layer

open Cert.KernelIdeal Cert.KernelIdeal.Gen

variable {F : FTy → Type} [FloatOps F]
variable (m : (ℓ : Loc nD τ sig) → Buf (Elt F) ℓ)

theorem points_pos : 0 < cfg0.N := by rw [show cfg0.N = 25 from N_0]; decide

/-- The grid's first point. -/
abbrev first : Fin cfg0.N := ⟨0, points_pos⟩

/-- The widened features the first point builds from the feature array's (one, whole) block. -/
def heldFeatures (c : Dev nD) : Vec F S10000x256 .bf16 := features (iblk m c 0 first)

/-- The widened weights the first point builds from the weight array's and the bias row's (whole) blocks. -/
def heldWeights (c : Dev nD) : Vec F S256x128 .bf16 := weights (iblk m c 1 first) (iblk m c 2 first)

/-- The first point: it builds the two buffers and its output block is over them. -/
theorem sweep_first (c : Dev nD) :
    outsAt0 m c first.val first.isLt
      = (k0_pay5 (iblk m c 3 first) (heldFeatures m c) (heldWeights m c), heldFeatures m c, heldWeights m c) := by
  refine (outsAt0_A m c first rfl).trans ?_
  unfold heldFeatures heldWeights
  exact congrArg₂ Prod.mk
    (first_out c (grid0.coords first) (ms0_0 first) (hs0_0 first) (ms0_1 first) (hs0_1 first) (ms0_2 first) (hs0_2 first) (ms0_3 first) (hs0_3 first) (ms0_4 first) (hs0_4 first) scM0_0 (Memref.isWhole_whole _) scM0_1 (Memref.isWhole_whole _) ((hcond0_0 first).mpr rfl) (iblk m c 0 first) (iblk m c 1 first) (iblk m c 2 first) (iblk m c 3 first))
    (congrArg₂ Prod.mk
      (first_features c (grid0.coords first) (ms0_0 first) (hs0_0 first) (ms0_1 first) (hs0_1 first) (ms0_2 first) (hs0_2 first) (ms0_3 first) (hs0_3 first) (ms0_4 first) (hs0_4 first) scM0_0 (Memref.isWhole_whole _) scM0_1 (Memref.isWhole_whole _) ((hcond0_0 first).mpr rfl) (iblk m c 0 first) (iblk m c 1 first) (iblk m c 2 first) (iblk m c 3 first))
      (first_weights c (grid0.coords first) (ms0_0 first) (hs0_0 first) (ms0_1 first) (hs0_1 first) (ms0_2 first) (hs0_2 first) (ms0_3 first) (hs0_3 first) (ms0_4 first) (hs0_4 first) scM0_0 (Memref.isWhole_whole _) scM0_1 (Memref.isWhole_whole _) ((hcond0_0 first).mpr rfl) (iblk m c 0 first) (iblk m c 1 first) (iblk m c 2 first) (iblk m c 3 first)))

/-- A later point: it finds the two buffers as the point before left them, leaves them so, and its output block is over
    them. -/
theorem sweep_later (c : Dev nD) (t : Fin cfg0.N) (ht : ¬t.val % 25 = 0)
    (e1 : (outsAt0 m c (t.val - 1) (Nat.lt_of_le_of_lt (Nat.sub_le _ _) t.isLt)).2.1 = heldFeatures m c)
    (e2 : (outsAt0 m c (t.val - 1) (Nat.lt_of_le_of_lt (Nat.sub_le _ _) t.isLt)).2.2 = heldWeights m c) :
    outsAt0 m c t.val t.isLt
      = (k0_pay5 (iblk m c 3 t) (heldFeatures m c) (heldWeights m c), heldFeatures m c, heldWeights m c) := by
  refine (outsAt0_B m c t ht).trans (congrArg₂ Prod.mk ?_ (congrArg₂ Prod.mk e1 e2))
  refine (later_out c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h' => ht ((hcond0_0 t).mp h')) (iblk m c 0 t) (iblk m c 1 t) (iblk m c 2 t) (iblk m c 3 t) _ _).trans ?_
  rw [e1, e2]

/-- After point `n`: the output block of that point over the held buffers, and the held buffers themselves. -/
theorem sweep (c : Dev nD) (n : ℕ) : ∀ h : n < cfg0.N,
    outsAt0 m c n h = (k0_pay5 (iblk m c 3 ⟨n, h⟩) (heldFeatures m c) (heldWeights m c), heldFeatures m c, heldWeights m c) := by
  induction n with
  | zero => intro h; exact sweep_first m c
  | succ n ih =>
    intro h
    have hN : cfg0.N = 25 := N_0
    have held1 : ∀ (k : ℕ) (hk : k < cfg0.N), k = n → (outsAt0 m c k hk).2.1 = heldFeatures m c := by
      intro k hk hkn; subst hkn
      have e := congrArg Prod.snd (ih hk)
      dsimp only at e
      have e' := congrArg Prod.fst e
      dsimp only at e'
      exact e'
    have held2 : ∀ (k : ℕ) (hk : k < cfg0.N), k = n → (outsAt0 m c k hk).2.2 = heldWeights m c := by
      intro k hk hkn; subst hkn
      have e := congrArg Prod.snd (ih hk)
      dsimp only at e
      have e' := congrArg Prod.snd e
      dsimp only at e'
      exact e'
    have hprev : (⟨n + 1, h⟩ : Fin cfg0.N).val - 1 = n := by show n + 1 - 1 = n; omega
    exact sweep_later m c ⟨n + 1, h⟩ (by dsimp only; omega) (held1 _ _ hprev) (held2 _ _ hprev)

/-- What point `t` leaves in the output's staging buffer. -/
theorem out_at (c : Dev nD) (t : Fin cfg0.N) :
    (outsAt0 m c t.val t.isLt).1 = k0_pay5 (iblk m c 3 t) (heldFeatures m c) (heldWeights m c) := by
  have e := congrArg Prod.fst (sweep m c t.val t.isLt)
  dsimp only at e
  exact e

end Cert.KernelIdeal.Layer

end
-- ==== Proof.Spec.lean ====
/-
  The graph-convolution layer as one function of its four argument arrays, on the extended reals, in the two
  arrangements the two programs compute.

  `layer` is the textbook order: the affine map first, h = x·Wᵀ + b, then the aggregation adj·h, then the
  positive part. `padded` is the single chain: x is widened by a column of ones (and then by zero columns, to 256
  columns), Wᵀ is widened by the row b (and then by zero rows, to 256 rows), and adj·[x | 1 | 0] is formed first,
  then multiplied by [Wᵀ ; b ; 0], then the positive part.

  Over the reals the two are one function: the product with the ones column is the row sum of adj, the zero columns
  meet zero rows, and  Σₙ aₙ·(Σₖ xₙₖ wₖ + β) = Σₖ (Σₙ aₙ xₙₖ) wₖ + (Σₙ aₙ)·β  by distributivity and an exchange of
  the two sums. Distributivity fails at the infinities of the extended reals, so the law is stated for finite entries.
-/
import Idealize.ShloMosaic.PureOps.Ideal
import Idealize.ShloMosaic.Lib.ValueIdx

noncomputable section

open scoped BigOperators

namespace Cert.GcnSpec

open Idealize.ShloMosaic Idealize.ShloMosaic.ValueIdx

/-! ## The law over the reals, and its lift to finite extended reals -/

/-- Aggregating an affine map: Σₖ (Σₙ aₙ xₙₖ) wₖ + (Σₙ aₙ) β = Σₙ aₙ (Σₖ xₙₖ wₖ + β). -/
theorem aggregate_affine_real {N K : Type*} [Fintype N] [Fintype K] (a : N → ℝ) (x : N → K → ℝ) (w : K → ℝ) (β : ℝ) :
    ∑ k, (∑ n, a n * x n k) * w k + (∑ n, a n) * β = ∑ n, a n * (∑ k, x n k * w k + β) := by
  simp only [mul_add, Finset.sum_add_distrib, Finset.sum_mul, Finset.mul_sum, mul_assoc]
  congr 1
  exact Finset.sum_comm

/-- A finite sum of real numbers, taken in the extended reals, is the real sum. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The same law for extended reals all of whose entries are finite. -/
theorem aggregate_affine {N K : Type*} [Fintype N] [Fintype K] (a : N → EReal) (x : N → K → EReal) (w : K → EReal)
    (β : EReal) (ha : ∀ n, ∃ r : ℝ, a n = r) (hx : ∀ n k, ∃ r : ℝ, x n k = r) (hw : ∀ k, ∃ r : ℝ, w k = r)
    (hβ : ∃ r : ℝ, β = r) :
    ∑ k, (∑ n, a n * x n k) * w k + (∑ n, a n) * β = ∑ n, a n * (∑ k, x n k * w k + β) := by
  choose ar har using ha
  choose xr hxr using hx
  choose wr hwr using hw
  obtain ⟨βr, rfl⟩ := hβ
  simp only [har, hxr, hwr, ← EReal.coe_mul, ← EReal.coe_add, coe_sum]
  exact congrArg _ (aggregate_affine_real ar xr wr βr)

/-! ## The two arrangements -/

/-- The layer in the textbook order, at row `r` and output feature `j`. -/
def layer (x : (⟨2, ![10000, 128]⟩ : Shape).Idx → EReal) (adj : (⟨2, ![10000, 10000]⟩ : Shape).Idx → EReal)
    (W : (⟨2, ![128, 128]⟩ : Shape).Idx → EReal) (b : (⟨1, ![128]⟩ : Shape).Idx → EReal)
    (r : Fin 10000) (j : Fin 128) : EReal :=
  max (∑ n : Fin 10000, adj (ix2 r n) * (∑ k : Fin 128, x (ix2 n k) * W (ix2 j k) + b (ix1 j))) 0

/-- x widened to 256 columns: x, then a column of ones, then zeros. -/
def padX (x : (⟨2, ![10000, 128]⟩ : Shape).Idx → EReal) (n : Fin 10000) (p : Fin 256) : EReal :=
  if h : p.val < 128 then x (ix2 n ⟨p.val, h⟩) else if p.val = 128 then 1 else 0

/-- Wᵀ widened to 256 rows: Wᵀ, then the row b, then zero rows (each a multiple of b). -/
def padW (W : (⟨2, ![128, 128]⟩ : Shape).Idx → EReal) (b : (⟨1, ![128]⟩ : Shape).Idx → EReal)
    (p : Fin 256) (j : Fin 128) : EReal :=
  if h : p.val < 128 then W (ix2 j ⟨p.val, h⟩) else (if p.val = 128 then 1 else 0) * b (ix1 j)

/-- The layer as the single chain of two products over the widened operands. -/
def padded (x : (⟨2, ![10000, 128]⟩ : Shape).Idx → EReal) (adj : (⟨2, ![10000, 10000]⟩ : Shape).Idx → EReal)
    (W : (⟨2, ![128, 128]⟩ : Shape).Idx → EReal) (b : (⟨1, ![128]⟩ : Shape).Idx → EReal)
    (r : Fin 10000) (j : Fin 128) : EReal :=
  max (∑ p : Fin 256, (∑ n : Fin 10000, adj (ix2 r n) * padX x n p) * padW W b p j) 0

/-! ## They agree on finite arrays -/

theorem padX_low (x : (⟨2, ![10000, 128]⟩ : Shape).Idx → EReal) (n : Fin 10000) (k : Fin 128) :
    padX x n (Fin.castAdd 128 k) = x (ix2 n k) := by
  unfold padX
  rw [dif_pos (show (Fin.castAdd 128 k).val < 128 from k.isLt)]
  rfl

theorem padX_high (x : (⟨2, ![10000, 128]⟩ : Shape).Idx → EReal) (n : Fin 10000) (k : Fin 128) :
    padX x n (Fin.natAdd 128 k) = if k.val = 0 then 1 else 0 := by
  unfold padX
  have h1 : ¬ (Fin.natAdd 128 k).val < 128 := by rw [Fin.coe_natAdd]; omega
  have h2 : (Fin.natAdd 128 k).val = 128 ↔ k.val = 0 := by rw [Fin.coe_natAdd]; omega
  rw [dif_neg h1]
  exact if_congr h2 rfl rfl

theorem padW_low (W : (⟨2, ![128, 128]⟩ : Shape).Idx → EReal) (b : (⟨1, ![128]⟩ : Shape).Idx → EReal)
    (k : Fin 128) (j : Fin 128) : padW W b (Fin.castAdd 128 k) j = W (ix2 j k) := by
  unfold padW
  rw [dif_pos (show (Fin.castAdd 128 k).val < 128 from k.isLt)]
  rfl

theorem padW_high (W : (⟨2, ![128, 128]⟩ : Shape).Idx → EReal) (b : (⟨1, ![128]⟩ : Shape).Idx → EReal)
    (k : Fin 128) (j : Fin 128) : padW W b (Fin.natAdd 128 k) j = (if k.val = 0 then 1 else 0) * b (ix1 j) := by
  unfold padW
  have h1 : ¬ (Fin.natAdd 128 k).val < 128 := by rw [Fin.coe_natAdd]; omega
  have h2 : (Fin.natAdd 128 k).val = 128 ↔ k.val = 0 := by rw [Fin.coe_natAdd]; omega
  rw [dif_neg h1]
  exact congrArg (· * b (ix1 j)) (if_congr h2 rfl rfl)

/-- The upper 128 columns contribute the row sum of `a` times β: only the ones column meets the row b. -/
theorem upper_half (a : Fin 10000 → EReal) (β : EReal) :
    ∑ k : Fin 128, (∑ n : Fin 10000, a n * (if k.val = 0 then (1 : EReal) else 0)) * ((if k.val = 0 then (1 : EReal) else 0) * β)
      = (∑ n : Fin 10000, a n) * β := by
  rw [Finset.sum_eq_single (⟨0, by decide⟩ : Fin 128)]
  · simp
  · intro k _ hk
    have hk0 : ¬ k.val = 0 := fun h => hk (Fin.ext h)
    simp [hk0]
  · intro h; exact absurd (Finset.mem_univ _) h

/-- On finite arrays the single chain over the widened operands is the layer. -/
theorem padded_eq_layer (x : (⟨2, ![10000, 128]⟩ : Shape).Idx → EReal) (adj : (⟨2, ![10000, 10000]⟩ : Shape).Idx → EReal)
    (W : (⟨2, ![128, 128]⟩ : Shape).Idx → EReal) (b : (⟨1, ![128]⟩ : Shape).Idx → EReal)
    (hx : ∀ i, ∃ r : ℝ, x i = r) (hadj : ∀ i, ∃ r : ℝ, adj i = r) (hW : ∀ i, ∃ r : ℝ, W i = r)
    (hb : ∀ i, ∃ r : ℝ, b i = r) (r : Fin 10000) (j : Fin 128) :
    padded x adj W b r j = layer x adj W b r j := by
  unfold padded layer
  congr 1
  rw [Fin.sum_univ_add (a := 128) (b := 128)
    (fun p : Fin 256 => (∑ n : Fin 10000, adj (ix2 r n) * padX x n p) * padW W b p j)]
  simp only [padX_low, padX_high, padW_low, padW_high]
  rw [upper_half (fun n => adj (ix2 r n)) (b (ix1 j))]
  exact aggregate_affine (fun n => adj (ix2 r n)) (fun n k => x (ix2 n k)) (fun k => W (ix2 j k)) (b (ix1 j))
    (fun n => hadj _) (fun n k => hx _) (fun k => hW _) (hb _)

end Cert.GcnSpec

end
-- ==== Proof.AtIndex.lean ====
/-
  The kernel's terms read at an index, on the extended reals.

  The indicator a comparison of a lane or row counter with zero gives, converted to a float, is 1 at zero and 0
  elsewhere; so the right half of the widened feature buffer is the column of ones followed by zero columns, and the
  lower half of the widened weight buffer is the bias row followed by zero rows (each 0·b). A narrowing of the float
  format is the identity. A matrix product into a zero accumulator is the plain sum over the contracted axis. Hence
  the output block at (r, j) is max(Σ_p (Σ_n a(r,n)·features(n,p))·weights(p,j), 0).
-/
import proofs.«162712_g59227599011857_cont_9to1_m_754_15_alg».proof.Proof.Pieces
import proofs.«162712_g59227599011857_cont_9to1_m_754_15_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators
open Idealize.ShloMosaic Idealize.ShloMosaic.TcCoe Idealize.SL.Sem Idealize.ShloMosaic.ValueIdx

namespace Cert.KernelIdeal.Layer

open Cert.KernelIdeal Cert.KernelIdeal.Gen Cert.GcnSpec

/-! ## The indicator of zero -/

/-- The word "counter = 0", widened and read as a signed integer, is the real 1 at zero and 0 elsewhere. -/
theorem indicator (c : ℕ) (hc : c < 2 ^ 32) :
    FloatOps.sitofp (F := Ideal) .f32 ((IntOp.cmpi .eq (BitVec.ofNat 32 c) 0#32).setWidth 32)
      = if c = 0 then (1 : EReal) else 0 := by
  by_cases h : c = 0
  · subst h
    rw [if_pos rfl]
    have e : ((IntOp.cmpi .eq (BitVec.ofNat 32 0) 0#32).setWidth 32).toInt = 1 := by decide
    show (((((IntOp.cmpi .eq (BitVec.ofNat 32 0) 0#32).setWidth 32).toInt : ℤ) : ℝ) : EReal) = 1
    rw [e]; simp
  · rw [if_neg h]
    have hne : BitVec.ofNat 32 c ≠ 0#32 := by
      intro e
      have e' := congrArg BitVec.toNat e
      rw [BitVec.toNat_ofNat, Nat.mod_eq_of_lt hc] at e'
      exact h e'
    have hw : IntOp.cmpi .eq (BitVec.ofNat 32 c) 0#32 = 0#1 := by
      show BitVec.ofBool (BitVec.ofNat 32 c == 0#32) = 0#1
      rw [beq_eq_false_iff_ne.mpr hne]; rfl
    rw [hw]
    have e : ((0#1 : BitVec 1).setWidth 32).toInt = 0 := by decide
    show (((((0#1 : BitVec 1).setWidth 32).toInt : ℤ) : ℝ) : EReal) = 0
    rw [e]; simp

/-! ## The four stored blocks of the first point -/

/-- The features' block is stored as it is (the narrowing is the identity). -/
theorem pay1_at (x0 : Vec Ideal S10000x128 .f32) (n : Fin 10000) (k : Fin 128) :
    k0_pay1 x0 (ix2 n k) = x0 (ix2 n k) := by
  unfold k0_pay1
  simp only [shapeCast_self]
  rfl

/-- The block stored beside it is the column of ones followed by zero columns. -/
theorem pay2_at (n : Fin 10000) (k : Fin 128) :
    k0_pay2 (F := Ideal) (ix2 n k) = if k.val = 0 then (1 : EReal) else 0 := by
  unfold k0_pay2
  simp only [shapeCast_self]
  show FloatOps.sitofp (F := Ideal) .f32
    ((IntOp.cmpi .eq (iota .tc S10000x128 32 [1] iota_S10000x128_d1_w32 (ix2 n k)) 0#32).setWidth 32) = _
  rw [iota_single_apply]
  exact indicator k.val (by have := k.isLt; omega)

/-- The weights' block is stored transposed. -/
theorem pay3_at (x1 : Vec Ideal S128x128 .f32) (p j : Fin 128) : k0_pay3 x1 (ix2 p j) = x1 (ix2 j p) := by
  unfold k0_pay3
  simp only [shapeCast_self]
  show transpose S128x128 [1, 0] x1 transposes_S128x128_p1_0_S128x128 (ix2 p j) = _
  exact transpose_apply [1, 0] x1 _ (ix2 p j) (ix2 j p) (fun b => match b with
    | ⟨0, _⟩ => rfl
    | ⟨1, _⟩ => rfl)

/-- The block stored below it is the bias row followed by zero multiples of it. -/
theorem pay4_at (x2 : Vec Ideal S1x128 .f32) (p j : Fin 128) :
    k0_pay4 x2 (ix2 p j) = (if p.val = 0 then (1 : EReal) else 0) * x2 (ix2 (0 : Fin 1) j) := by
  unfold k0_pay4
  simp only [shapeCast_self]
  show FloatOps.sitofp (F := Ideal) .f32
      ((IntOp.cmpi .eq (iota .tc S128x128 32 [0] iota_S128x128_d0_w32 (ix2 p j)) 0#32).setWidth 32)
    * broadcastTo S128x128 x2 broadcasts_S1x128_S128x128 (ix2 p j) = _
  rw [iota_single_apply, broadcastTo_apply x2 broadcasts_S1x128_S128x128 (ix2 p j) (ix2 (0 : Fin 1) j) (fun a => match a with
    | ⟨0, _⟩ => by show (0 : ℕ) = if (1 : Nat) = 1 then 0 else p.val; rw [if_pos rfl]
    | ⟨1, _⟩ => by show j.val = if (128 : Nat) = 1 then 0 else j.val; rw [if_neg (by decide)])]
  exact congrArg (· * x2 (ix2 (0 : Fin 1) j)) (indicator p.val (by have := p.isLt; omega))

/-! ## The two scratch buffers read back -/

/-- An index that the last store's rectangle does not reach reads the earlier stores. -/
theorem canon_cons_of_miss {S : Shape} {e : EltTy} (r : Rect S) (w : r.shape.Idx → Elt Ideal e)
    (L : List (View.Piece (Elt Ideal) S e)) (y : S.Idx) (h : ∀ x, r.emb x ≠ y) :
    View.canon (⟨r, w⟩ :: L) y = View.canon L y := by
  rw [View.canon_cons]
  show r.overlay (View.canon L) w y = _
  unfold Rect.overlay
  rw [preimage?_eq_none h]

/-- An index that is the last store's rectangle at `x` reads that store's value at `x`. -/
theorem canon_cons_of_hit {S : Shape} {e : EltTy} (r : Rect S) (w : r.shape.Idx → Elt Ideal e)
    (L : List (View.Piece (Elt Ideal) S e)) (y : S.Idx) (x : r.shape.Idx) (h : r.emb x = y) :
    View.canon (⟨r, w⟩ :: L) y = w x := by
  subst h
  exact View.canon_cons_emb r w L x

/-- The left and right halves of the feature buffer, the upper and lower halves of the weight buffer. -/
abbrev leftHalf : Rect S10000x256 := Rect.unit (s := S10000x256) ![0, 0] S10000x128.size inb_S10000x256_S10000x128_0_0
abbrev rightHalf : Rect S10000x256 := Rect.unit (s := S10000x256) ![0, 128] S10000x128.size inb_S10000x256_S10000x128_0_128
abbrev upperHalf : Rect S256x128 := Rect.unit (s := S256x128) ![0, 0] S128x128.size inb_S256x128_S128x128_0_0
abbrev lowerHalf : Rect S256x128 := Rect.unit (s := S256x128) ![128, 0] S128x128.size inb_S256x128_S128x128_128_0

theorem leftHalf_emb (n : Fin 10000) (k : Fin 128) (p : Fin 256) (hp : p.val = k.val) :
    leftHalf.emb (ix2 n k) = (ix2 n p : S10000x256.Idx) :=
  funext fun a => Fin.ext (by
    match a with
    | ⟨0, _⟩ => show 0 + 1 * n.val = n.val; omega
    | ⟨1, _⟩ => show 0 + 1 * k.val = p.val; omega)

theorem rightHalf_emb (n : Fin 10000) (k : Fin 128) (p : Fin 256) (hp : p.val = 128 + k.val) :
    rightHalf.emb (ix2 n k) = (ix2 n p : S10000x256.Idx) :=
  funext fun a => Fin.ext (by
    match a with
    | ⟨0, _⟩ => show 0 + 1 * n.val = n.val; omega
    | ⟨1, _⟩ => show 128 + 1 * k.val = p.val; omega)

theorem rightHalf_miss (n : Fin 10000) (p : Fin 256) (hp : p.val < 128) (x : rightHalf.shape.Idx) :
    rightHalf.emb x ≠ (ix2 n p : S10000x256.Idx) := by
  intro he
  have h1 : (128 : ℕ) + 1 * (x 1).val = p.val := congrArg (fun i : S10000x256.Idx => (i 1).val) he
  omega

theorem upperHalf_emb (k : Fin 128) (j : Fin 128) (p : Fin 256) (hp : p.val = k.val) :
    upperHalf.emb (ix2 k j) = (ix2 p j : S256x128.Idx) :=
  funext fun a => Fin.ext (by
    match a with
    | ⟨0, _⟩ => show 0 + 1 * k.val = p.val; omega
    | ⟨1, _⟩ => show 0 + 1 * j.val = j.val; omega)

theorem lowerHalf_emb (k : Fin 128) (j : Fin 128) (p : Fin 256) (hp : p.val = 128 + k.val) :
    lowerHalf.emb (ix2 k j) = (ix2 p j : S256x128.Idx) :=
  funext fun a => Fin.ext (by
    match a with
    | ⟨0, _⟩ => show 128 + 1 * k.val = p.val; omega
    | ⟨1, _⟩ => show 0 + 1 * j.val = j.val; omega)

theorem lowerHalf_miss (p : Fin 256) (j : Fin 128) (hp : p.val < 128) (x : lowerHalf.shape.Idx) :
    lowerHalf.emb x ≠ (ix2 p j : S256x128.Idx) := by
  intro he
  have h1 : (128 : ℕ) + 1 * (x 0).val = p.val := congrArg (fun i : S256x128.Idx => (i 0).val) he
  omega

/-- The widened feature buffer at (n, p): the feature for p < 128, one at p = 128, zero beyond. -/
theorem features_at (x0 : Vec Ideal S10000x128 .f32) (n : Fin 10000) (p : Fin 256) :
    features x0 (ix2 n p) = padX x0 n p := by
  unfold features padX
  by_cases h : p.val < 128
  · rw [dif_pos h]
    refine (canon_cons_of_miss (e := .bf16) rightHalf _ _ (ix2 n p) (rightHalf_miss n p h)).trans ?_
    exact (canon_cons_of_hit (e := .bf16) leftHalf _ _ (ix2 n p) (ix2 n (⟨p.val, h⟩ : Fin 128))
      (leftHalf_emb n ⟨p.val, h⟩ p rfl)).trans (pay1_at x0 n ⟨p.val, h⟩)
  · rw [dif_neg h]
    have hp := p.isLt
    have hk : p.val - 128 < 128 := by omega
    refine (canon_cons_of_hit (e := .bf16) rightHalf _ _ (ix2 n p)
      (ix2 n (⟨p.val - 128, hk⟩ : Fin 128)) (rightHalf_emb n ⟨p.val - 128, hk⟩ p (by show p.val = 128 + (p.val - 128); omega))).trans ?_
    refine (pay2_at n ⟨p.val - 128, hk⟩).trans ?_
    exact if_congr (by show p.val - 128 = 0 ↔ p.val = 128; omega) rfl rfl

/-- The widened weight buffer at (p, j): the transposed weight for p < 128, the bias at p = 128, zero·bias beyond. -/
theorem weights_at (x1 : Vec Ideal S128x128 .f32) (x2 : Vec Ideal S1x128 .f32) (b : (⟨1, ![128]⟩ : Shape).Idx → EReal)
    (hb : ∀ j : Fin 128, x2 (ix2 (0 : Fin 1) j) = b (ix1 j)) (p : Fin 256) (j : Fin 128) :
    weights x1 x2 (ix2 p j) = padW x1 b p j := by
  unfold weights padW
  by_cases h : p.val < 128
  · rw [dif_pos h]
    refine (canon_cons_of_miss (e := .bf16) lowerHalf _ _ (ix2 p j) (lowerHalf_miss p j h)).trans ?_
    exact (canon_cons_of_hit (e := .bf16) upperHalf _ _ (ix2 p j) (ix2 (⟨p.val, h⟩ : Fin 128) j)
      (upperHalf_emb ⟨p.val, h⟩ j p rfl)).trans (pay3_at x1 ⟨p.val, h⟩ j)
  · rw [dif_neg h]
    have hp := p.isLt
    have hk : p.val - 128 < 128 := by omega
    refine (canon_cons_of_hit (e := .bf16) lowerHalf _ _ (ix2 p j)
      (ix2 (⟨p.val - 128, hk⟩ : Fin 128) j) (lowerHalf_emb ⟨p.val - 128, hk⟩ j p (by show p.val = 128 + (p.val - 128); omega))).trans ?_
    refine (pay4_at x2 ⟨p.val - 128, hk⟩ j).trans ?_
    rw [hb j]
    exact congrArg (· * b (ix1 j)) (if_congr (by show p.val - 128 = 0 ↔ p.val = 128; omega) rfl rfl)

/-! ## The two products and the output block -/

theorem aggregate_at_lhs0 (i : S400x256.Idx) (q : dot_S400x10000_S10000x256_S400x256_1_0_0_1_n_n.contr.Idx) : (dot_S400x10000_S10000x256_S400x256_1_0_0_1_n_n.lhsIdx i q 0).val = (i 0).val := by
  unfold DotDims.lhsIdx
  rw [dif_neg (show ¬(0 : Fin S400x10000.rank) ∈ dot_S400x10000_S10000x256_S400x256_1_0_0_1_n_n.lhsBatch by decide), dif_pos (show (0 : Fin S400x10000.rank) ∈ dot_S400x10000_S10000x256_S400x256_1_0_0_1_n_n.lhsNonContracting by decide)]
  rfl
theorem aggregate_at_rhs1 (i : S400x256.Idx) (q : dot_S400x10000_S10000x256_S400x256_1_0_0_1_n_n.contr.Idx) : (dot_S400x10000_S10000x256_S400x256_1_0_0_1_n_n.rhsIdx i q 1).val = (i 1).val := by
  unfold DotDims.rhsIdx
  rw [dif_neg (show ¬(1 : Fin S10000x256.rank) ∈ dot_S400x10000_S10000x256_S400x256_1_0_0_1_n_n.rhsBatch by decide), dif_pos (show (1 : Fin S10000x256.rank) ∈ dot_S400x10000_S10000x256_S400x256_1_0_0_1_n_n.rhsNonContracting by decide)]
  rfl

/-- The first product at (r, p): the adjacency block's row r against column p of the widened features. -/
theorem aggregate_at (l : FVec Ideal S400x10000 .bf16) (w : FVec Ideal S10000x256 .bf16) (r : Fin 400) (j : Fin 256) :
    matmul dot_S400x10000_S10000x256_S400x256_1_0_0_1_n_n none l w (constant S400x256 .f32 0x00000000#32) (ix2 r j) = ∑ k : Fin 10000, l (ix2 r k) * w (ix2 k j) := by
  simp only [matmul]
  rw [Ideal.matmul_constant_zero_apply, ← Equiv.sum_comp (contrEquiv1 dot_S400x10000_S10000x256_S400x256_1_0_0_1_n_n 10000 rfl rfl).symm]
  refine Finset.sum_congr rfl fun k _ => ?_
  have hk := contrEquiv1_symm_val dot_S400x10000_S10000x256_S400x256_1_0_0_1_n_n 10000 rfl rfl k
  have el : dot_S400x10000_S10000x256_S400x256_1_0_0_1_n_n.lhsIdx (ix2 r j) ((contrEquiv1 dot_S400x10000_S10000x256_S400x256_1_0_0_1_n_n 10000 rfl rfl).symm k) = ix2 r k := funext fun a => Fin.ext (by
    match a with
    | ⟨0, _⟩ => exact aggregate_at_lhs0 _ _
    | ⟨1, _⟩ => exact (dot_S400x10000_S10000x256_S400x256_1_0_0_1_n_n.lhsIdx_val_of_single rfl _ _).trans hk)
  have er : dot_S400x10000_S10000x256_S400x256_1_0_0_1_n_n.rhsIdx (ix2 r j) ((contrEquiv1 dot_S400x10000_S10000x256_S400x256_1_0_0_1_n_n 10000 rfl rfl).symm k) = ix2 k j := funext fun a => Fin.ext (by
    match a with
    | ⟨0, _⟩ => exact (dot_S400x10000_S10000x256_S400x256_1_0_0_1_n_n.rhsIdx_val_of_single rfl _ _).trans hk
    | ⟨1, _⟩ => exact aggregate_at_rhs1 _ _)
  rw [el, er]

theorem project_at_lhs0 (i : S400x128.Idx) (q : dot_S400x256_S256x128_S400x128_1_0_0_1_n_n.contr.Idx) : (dot_S400x256_S256x128_S400x128_1_0_0_1_n_n.lhsIdx i q 0).val = (i 0).val := by
  unfold DotDims.lhsIdx
  rw [dif_neg (show ¬(0 : Fin S400x256.rank) ∈ dot_S400x256_S256x128_S400x128_1_0_0_1_n_n.lhsBatch by decide), dif_pos (show (0 : Fin S400x256.rank) ∈ dot_S400x256_S256x128_S400x128_1_0_0_1_n_n.lhsNonContracting by decide)]
  rfl
theorem project_at_rhs1 (i : S400x128.Idx) (q : dot_S400x256_S256x128_S400x128_1_0_0_1_n_n.contr.Idx) : (dot_S400x256_S256x128_S400x128_1_0_0_1_n_n.rhsIdx i q 1).val = (i 1).val := by
  unfold DotDims.rhsIdx
  rw [dif_neg (show ¬(1 : Fin S256x128.rank) ∈ dot_S400x256_S256x128_S400x128_1_0_0_1_n_n.rhsBatch by decide), dif_pos (show (1 : Fin S256x128.rank) ∈ dot_S400x256_S256x128_S400x128_1_0_0_1_n_n.rhsNonContracting by decide)]
  rfl

/-- The second product at (r, j): row r of the first product against column j of the widened weights. -/
theorem project_at (l : FVec Ideal S400x256 .bf16) (w : FVec Ideal S256x128 .bf16) (r : Fin 400) (j : Fin 128) :
    matmul dot_S400x256_S256x128_S400x128_1_0_0_1_n_n none l w (constant S400x128 .f32 0x00000000#32) (ix2 r j) = ∑ k : Fin 256, l (ix2 r k) * w (ix2 k j) := by
  simp only [matmul]
  rw [Ideal.matmul_constant_zero_apply, ← Equiv.sum_comp (contrEquiv1 dot_S400x256_S256x128_S400x128_1_0_0_1_n_n 256 rfl rfl).symm]
  refine Finset.sum_congr rfl fun k _ => ?_
  have hk := contrEquiv1_symm_val dot_S400x256_S256x128_S400x128_1_0_0_1_n_n 256 rfl rfl k
  have el : dot_S400x256_S256x128_S400x128_1_0_0_1_n_n.lhsIdx (ix2 r j) ((contrEquiv1 dot_S400x256_S256x128_S400x128_1_0_0_1_n_n 256 rfl rfl).symm k) = ix2 r k := funext fun a => Fin.ext (by
    match a with
    | ⟨0, _⟩ => exact project_at_lhs0 _ _
    | ⟨1, _⟩ => exact (dot_S400x256_S256x128_S400x128_1_0_0_1_n_n.lhsIdx_val_of_single rfl _ _).trans hk)
  have er : dot_S400x256_S256x128_S400x128_1_0_0_1_n_n.rhsIdx (ix2 r j) ((contrEquiv1 dot_S400x256_S256x128_S400x128_1_0_0_1_n_n 256 rfl rfl).symm k) = ix2 k j := funext fun a => Fin.ext (by
    match a with
    | ⟨0, _⟩ => exact (dot_S400x256_S256x128_S400x128_1_0_0_1_n_n.rhsIdx_val_of_single rfl _ _).trans hk
    | ⟨1, _⟩ => exact project_at_rhs1 _ _)
  rw [el, er]

/-- The output block at (r, j). -/
theorem pay5_at (x3 : Vec Ideal S400x10000 .f32) (xs0 : Vec Ideal S10000x256 .bf16) (xs1 : Vec Ideal S256x128 .bf16)
    (r : Fin 400) (j : Fin 128) :
    k0_pay5 x3 xs0 xs1 (ix2 r j)
      = max (∑ p : Fin 256, (∑ n : Fin 10000, x3 (ix2 r n) * xs0 (ix2 n p)) * xs1 (ix2 p j)) 0 := by
  unfold k0_pay5
  refine (maximumf_apply _ _ (ix2 r j)).trans ?_
  refine congrArg₂ max ?_ Ideal.ofBits_zero_f32
  refine (project_at _ xs1 r j).trans ?_
  refine Finset.sum_congr rfl fun p _ => ?_
  refine congrArg (· * xs1 (ix2 p j)) ?_
  exact aggregate_at _ xs0 r p

end Cert.KernelIdeal.Layer

end
-- ==== Proof.Blocks.lean ====
/-
  What each window's block is, read off the argument arrays.

  The feature array, the weight array and the bias row are each ONE block (their index maps are constantly zero), so
  at every grid point the kernel sees them whole; the adjacency array is cut into 25 row blocks of 400 rows, and the
  block at point t holds rows 400·t … 400·t + 399, as does the output's block. The bias row the kernel sees is the
  bias vector reshaped to one row by the host before the call.
-/
import proofs.«162712_g59227599011857_cont_9to1_m_754_15_alg».proof.Proof.Gen.KernelIdeal.Frame
import Idealize.ShloMosaic.Lib.Pipeline.Value
import Idealize.ShloMosaic.Lib.StableHlo.Run
import Idealize.ShloMosaic.Lib.ValueIdx

set_option maxRecDepth 16384

noncomputable section

open Idealize.ShloMosaic Idealize.ShloMosaic.TcCoe Idealize.SL.Sem Idealize.ShloMosaic.ValueIdx

namespace Cert.KernelIdeal.Layer

open Cert.KernelIdeal Cert.KernelIdeal.Gen

variable {F : FTy → Type} [FloatOps F]
variable (m : (ℓ : Loc nD τ sig) → Buf (Elt F) ℓ)

/-- The index maps over the grid: three windows never move, the adjacency's and the output's row block is the point. -/
theorem index_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The feature window's block is the whole feature array. -/
theorem block_features (c : Dev nD) (t : Fin cfg0.N) :
    (iblk m c 0 t : Vec F S10000x128 .f32) = m ((c : Thread nD τ).loc main_arg0) := by
  funext j
  show V m c main_arg0 (((cfg0.win 0).blk t).view.emb j) = _
  rw [V_main_arg0]
  refine congrArg (m ((c : Thread nD τ).loc main_arg0)) (funext fun a => Fin.ext ?_)
  obtain ⟨e0, e1, -⟩ := index_facts t
  match a with
  | ⟨0, _⟩ => show win0_0.index t (0 : Fin 2) * 10000 + 1 * (j 0).val = (j 0).val; omega
  | ⟨1, _⟩ => show win0_0.index t (1 : Fin 2) * 128 + 1 * (j 1).val = (j 1).val; omega

/-- The weight window's block is the whole weight array. -/
theorem block_weights (c : Dev nD) (t : Fin cfg0.N) :
    (iblk m c 1 t : Vec F S128x128 .f32) = m ((c : Thread nD τ).loc main_arg2) := by
  funext j
  show V m c main_arg2 (((cfg0.win 1).blk t).view.emb j) = _
  rw [V_main_arg2]
  refine congrArg (m ((c : Thread nD τ).loc main_arg2)) (funext fun a => Fin.ext ?_)
  obtain ⟨-, -, e0, e1, -⟩ := index_facts t
  match a with
  | ⟨0, _⟩ => show win0_1.index t (0 : Fin 2) * 128 + 1 * (j 0).val = (j 0).val; omega
  | ⟨1, _⟩ => show win0_1.index t (1 : Fin 2) * 128 + 1 * (j 1).val = (j 1).val; omega

/-- The adjacency window's block at point t, row r, is row 400·t + r of the adjacency array. -/
theorem block_adjacency (c : Dev nD) (t : Fin cfg0.N) (r : Fin 400) (n : Fin 10000) (hr : 400 * t.val + r.val < 10000) :
    (iblk m c 3 t : Vec F S400x10000 .f32) (ix2 r n)
      = m ((c : Thread nD τ).loc main_arg1) (ix2 (⟨400 * t.val + r.val, hr⟩ : Fin 10000) n) := by
  show V m c main_arg1 (((cfg0.win 3).blk t).view.emb (ix2 r n)) = _
  rw [V_main_arg1]
  refine congrArg (m ((c : Thread nD τ).loc main_arg1)) (funext fun a => Fin.ext ?_)
  obtain ⟨-, -, -, -, -, -, e0, e1, -⟩ := index_facts t
  match a with
  | ⟨0, _⟩ => show win0_3.index t (0 : Fin 2) * 400 + 1 * r.val = 400 * t.val + r.val; omega
  | ⟨1, _⟩ => show win0_3.index t (1 : Fin 2) * 10000 + 1 * n.val = n.val; omega

/-- The row the host writes before the call: the bias vector, reshaped to one row. -/
theorem bias_row (c : Dev nD) :
    (V m c main_v0 : S1x128.Idx → Elt F .f32)
      = shapeCast S1x128 (m ((c : Thread nD τ).loc main_arg3)) shapeCasts_S128_S1x128 := by
  dsimp only [V, hostOps0]
  after_results
  rfl

/-- The bias window's block at column j is the bias vector at j. -/
theorem block_bias (c : Dev nD) (t : Fin cfg0.N) (j : Fin 128) :
    (iblk m c 2 t : Vec F S1x128 .f32) (ix2 (0 : Fin 1) j) = m ((c : Thread nD τ).loc main_arg3) (ix1 j) := by
  show V m c main_v0 (((cfg0.win 2).blk t).view.emb (ix2 (0 : Fin 1) j)) = _
  have e : (((cfg0.win 2).blk t).view.emb (ix2 (0 : Fin 1) j) : S1x128.Idx) = ix2 (0 : Fin 1) j := by
    funext a; apply Fin.ext
    obtain ⟨-, -, -, -, e0, e1, -⟩ := index_facts t
    match a with
    | ⟨0, _⟩ => show win0_2.index t (0 : Fin 2) * 1 + 1 * 0 = 0; omega
    | ⟨1, _⟩ => show win0_2.index t (1 : Fin 2) * 128 + 1 * j.val = j.val; omega
  rw [e]
  refine (congrFun (bias_row m c) (ix2 (0 : Fin 1) j)).trans ?_
  refine shapeCast_apply _ shapeCasts_S128_S1x128 (ix2 (0 : Fin 1) j) (ix1 j) ?_
  rw [Shape.rowMajor_val_one, Shape.rowMajor_val_two]
  show j.val = 0 * 128 + j.val
  omega

end Cert.KernelIdeal.Layer

end
-- ==== Proof.Final.lean ====
/-
  The kernel's result array, on the extended reals: the single chain over the widened operands, of the argument arrays.

  Point t writes back block t of that function: its output block at (r, j) is
  max(Σ_p (Σ_n a(400t+r, n)·features(n,p))·weights(p,j), 0), the adjacency block's row r being row 400t + r of the
  adjacency array, and the held buffers being the widened feature and weight arrays. The 25 blocks of 400 rows cover
  the 10000 rows (row r lies in the block of point r / 400), so the whole array ends holding the function.
-/
import proofs.«162712_g59227599011857_cont_9to1_m_754_15_alg».proof.Proof.Sweep
import proofs.«162712_g59227599011857_cont_9to1_m_754_15_alg».proof.Proof.AtIndex
import proofs.«162712_g59227599011857_cont_9to1_m_754_15_alg».proof.Proof.Blocks
import proofs.«162712_g59227599011857_cont_9to1_m_754_15_alg».proof.Proof.Gen.KernelIdeal.Value

set_option maxRecDepth 16384

noncomputable section

open scoped BigOperators
open Idealize.ShloMosaic Idealize.ShloMosaic.TcCoe Idealize.SL.Sem Idealize.ShloMosaic.ValueIdx

namespace Cert.KernelIdeal.Layer

open Cert.KernelIdeal Cert.KernelIdeal.Gen Cert.GcnSpec

variable (m : (ℓ : Loc nD τ sig) → Buf (Elt Ideal) ℓ) (ρ : Dev nD → PrngReg)

/-- The result array as one function of the argument arrays. -/
def result (c : Dev nD) : S10000x128.Idx → EReal :=
  fun i => padded (m ((c : Thread nD τ).loc main_arg0)) (m ((c : Thread nD τ).loc main_arg1)) (m ((c : Thread nD τ).loc main_arg2)) (m ((c : Thread nD τ).loc main_arg3)) (i 0) (i 1)

/-- The held feature buffer is the widened feature array. -/
theorem heldFeatures_at (c : Dev nD) (n : Fin 10000) (p : Fin 256) :
    heldFeatures m c (ix2 n p) = padX (m ((c : Thread nD τ).loc main_arg0)) n p :=
  (features_at (iblk m c 0 first) n p).trans (by rw [block_features m c first])

/-- The held weight buffer is the widened weight array. -/
theorem heldWeights_at (c : Dev nD) (p : Fin 256) (j : Fin 128) :
    heldWeights m c (ix2 p j) = padW (m ((c : Thread nD τ).loc main_arg2)) (m ((c : Thread nD τ).loc main_arg3)) p j :=
  (weights_at (iblk m c 1 first) (iblk m c 2 first) (m ((c : Thread nD τ).loc main_arg3))
    (fun j' => block_bias m c first j') p j).trans (by rw [block_weights m c first])

/-- Row r of point t's block is row 400·t + r of the array. -/
theorem out_row (t : Fin cfg0.N) (r : Fin 400) (j : Fin 128) (hr : 400 * t.val + r.val < 10000) :
    (((cfg0.win 4).blk t).view.emb (ix2 r j) : S10000x128.Idx) = ix2 (⟨400 * t.val + r.val, hr⟩ : Fin 10000) j := by
  funext a; apply Fin.ext
  obtain ⟨-, -, -, -, -, -, -, -, e0, e1⟩ := index_facts t
  match a with
  | ⟨0, _⟩ => show win0_4.index t (0 : Fin 2) * 400 + 1 * r.val = 400 * t.val + r.val; omega
  | ⟨1, _⟩ => show win0_4.index t (1 : Fin 2) * 128 + 1 * j.val = j.val; omega

/-- What point t writes back is block t of the result. -/
theorem flushed_eq (c : Dev nD) (t : Fin cfg0.N) :
    (dats m 0 c).flushed 4 t = ((cfg0.win 4).blk t).view.read (Elt Ideal) (result m c) := by
  rw [Cert.KernelIdeal.Value.flushed4, out_at m c t]
  funext y
  obtain ⟨r, j, rfl⟩ : ∃ (r : Fin 400) (j : Fin 128), y = ix2 r j := ⟨y 0, y 1, eq_ix2 y⟩
  have hN : cfg0.N = 25 := N_0
  have ht := t.isLt
  have hr : 400 * t.val + r.val < 10000 := by have := r.isLt; omega
  show k0_pay5 (iblk m c 3 t) (heldFeatures m c) (heldWeights m c) (ix2 r j)
    = result m c (((cfg0.win 4).blk t).view.emb (ix2 r j))
  rw [out_row t r j hr]
  show _ = padded (m ((c : Thread nD τ).loc main_arg0)) (m ((c : Thread nD τ).loc main_arg1)) (m ((c : Thread nD τ).loc main_arg2)) (m ((c : Thread nD τ).loc main_arg3)) (⟨400 * t.val + r.val, hr⟩ : Fin 10000) j
  refine (pay5_at _ _ _ r j).trans ?_
  unfold padded
  refine congrArg (max · 0) (Finset.sum_congr rfl fun p _ => ?_)
  refine congrArg₂ (· * ·) (Finset.sum_congr rfl fun n _ => ?_) (heldWeights_at m c p j)
  exact congrArg₂ (· * ·) (block_adjacency m c t r n hr) (heldFeatures_at m c n p)

/-- An index of the array is in point t's block iff each coordinate is in the block's range on its axis. -/
theorem mem_blk (t : Fin cfg0.N) (i : S10000x128.Idx) :
    i ∈ ((cfg0.win 4).blk t).view.set ↔ ∀ a : Fin 2, win0_4.index t a * S400x128.size a ≤ (i a).val
      ∧ (i a).val < win0_4.index t a * S400x128.size a + S400x128.size a := by
  show i ∈ ((View.whole main_v1).slice (win0_4.rect t)).set ↔ _
  rw [View.set_slice_whole, Rect.mem_set_unit]
  exact Iff.rfl

/-- Every row lies in the block of the point row / 400. -/
theorem cover (i : S10000x128.Idx) :
    ∃ t : Fin cfg0.N, (cfg0.win 4).flush t = true ∧ i ∈ ((cfg0.win 4).blk t).view.set := by
  have hN : cfg0.N = 25 := N_0
  have hi0 : (i 0).val < 10000 := (i 0).isLt
  have hi1 : (i 1).val < 128 := (i 1).isLt
  have hq : (i 0).val / 400 < cfg0.N := by rw [hN]; omega
  refine ⟨⟨(i 0).val / 400, hq⟩, flush0_4 _, ?_⟩
  rw [mem_blk]
  obtain ⟨-, -, -, -, -, -, -, -, e0, e1⟩ := index_facts ⟨(i 0).val / 400, hq⟩
  have e0' : win0_4.index ⟨(i 0).val / 400, hq⟩ (0 : Fin 2) = (i 0).val / 400 := e0
  intro a
  match a with
  | ⟨0, _⟩ =>
    show win0_4.index ⟨(i 0).val / 400, hq⟩ (0 : Fin 2) * 400 ≤ (i 0).val
      ∧ (i 0).val < win0_4.index ⟨(i 0).val / 400, hq⟩ (0 : Fin 2) * 400 + 400
    omega
  | ⟨1, _⟩ =>
    show win0_4.index ⟨(i 0).val / 400, hq⟩ (1 : Fin 2) * 128 ≤ (i 1).val
      ∧ (i 1).val < win0_4.index ⟨(i 0).val / 400, hq⟩ (1 : Fin 2) * 128 + 128
    omega

/-- The result array after the run. -/
theorem final (c : Dev nD) : (dats m 0 c).arrAt 4 cfg0.N = result m c :=
  (dats m 0 c).arrAt_eq_of_cover 4 (result m c) (fun t _ => flushed_eq m c t) cover

/-- The kernel's run: the result array at the function, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.KernelIdeal.Layer

end
-- ==== Proof.RefLayer.lean ====
/-
  The reference computes the layer in the textbook order: at row r and feature j its result is
  max(Σₙ adj(r,n)·(Σₖ x(n,k)·W(j,k) + b(j)), 0) — the transposed weights read back at (j,k), the bias broadcast along
  the rows, each product the plain sum over its contracted axis, the positive part the maximum with the zero word.
-/
import proofs.«162712_g59227599011857_cont_9to1_m_754_15_alg».proof.Proof.Gen.ReferenceIdeal.Read
import proofs.«162712_g59227599011857_cont_9to1_m_754_15_alg».proof.Proof.Spec

noncomputable section

open scoped BigOperators
open Idealize.ShloMosaic Idealize.ShloMosaic.ValueIdx

namespace Cert.ReferenceIdeal.Layer

open Cert.ReferenceIdeal Cert.ReferenceIdeal.Read Cert.GcnSpec

/-- The affine map's output at (n, j): Σₖ x(n,k)·W(j,k) + b(j). -/
theorem hidden_at (x0 : (⟨S10000x128, .f32⟩ : BufTy).Contents (Elt Ideal)) (x2 : (⟨S128x128, .f32⟩ : BufTy).Contents (Elt Ideal))
    (x3 : (⟨S128, .f32⟩ : BufTy).Contents (Elt Ideal)) (n : Fin 10000) (j : Fin 128) :
    val_main_v4 (F := Ideal) x0 x2 x3 (ix2 n j) = ∑ k : Fin 128, x0 (ix2 n k) * x2 (ix2 j k) + x3 (ix1 j) := by
  have e1 : ∀ k : Fin 128, lidx_main_v1 (ix2 n j) k = ix2 n k := fun k => funext fun a => Fin.ext (by
    match a with | ⟨0, _⟩ => rfl | ⟨1, _⟩ => rfl)
  have e2 : ∀ k : Fin 128, ridx_main_v1 (ix2 n j) k = ix2 k j := fun k => funext fun a => Fin.ext (by
    match a with | ⟨0, _⟩ => rfl | ⟨1, _⟩ => rfl)
  have e3 : ∀ k : Fin 128, idx_main_v0 (ix2 k j) = ix2 j k := fun k => funext fun a => Fin.ext (by
    match a with | ⟨0, _⟩ => rfl | ⟨1, _⟩ => rfl)
  have e4 : idx_main_v2 (idx_main_v3 (ix2 n j)) = ix1 j := funext fun a => Fin.ext (by
    match a with | ⟨0, _⟩ => rfl)
  rw [val_main_v4_apply, val_main_v1_apply, val_main_v3_apply, val_main_v2_apply]
  simp only [e1, e2, e3, e4, val_main_v0_apply, Ideal.addf_def]

/-- The reference's result is the layer. -/
theorem reference_eq_layer (x0 : (⟨S10000x128, .f32⟩ : BufTy).Contents (Elt Ideal))
    (x1 : (⟨S10000x10000, .f32⟩ : BufTy).Contents (Elt Ideal)) (x2 : (⟨S128x128, .f32⟩ : BufTy).Contents (Elt Ideal))
    (x3 : (⟨S128, .f32⟩ : BufTy).Contents (Elt Ideal)) :
    val_main_v6 (F := Ideal) x0 x1 x2 x3 = fun i => layer x0 x1 x2 x3 (i 0) (i 1) := by
  funext i
  obtain ⟨r, j, rfl⟩ : ∃ (r : Fin 10000) (j : Fin 128), i = ix2 r j := ⟨i 0, i 1, eq_ix2 i⟩
  have e1 : ∀ k : Fin 10000, lidx_main_v5 (ix2 r j) k = ix2 r k := fun k => funext fun a => Fin.ext (by
    match a with | ⟨0, _⟩ => rfl | ⟨1, _⟩ => rfl)
  have e2 : ∀ k : Fin 10000, ridx_main_v5 (ix2 r j) k = ix2 k j := fun k => funext fun a => Fin.ext (by
    match a with | ⟨0, _⟩ => rfl | ⟨1, _⟩ => rfl)
  rw [val_main_v6_apply, val_main_v5_apply, val_main_call0_v0_apply, val_main_call0_cst_apply]
  simp only [e1, e2, hidden_at, Ideal.maximumf_def, Ideal.ofBits_def, Ideal.ofBits_zero_f32]
  rfl

end Cert.ReferenceIdeal.Layer

end
-- ==== Proof.Finite.lean ====
/-
  What the precondition gives: every entry of the four argument arrays is a real number.

  The precondition is the conjunction, over the four arrays, of "every entry's absolute value is below +∞". On the
  extended reals |x| = max(x, −x) is below +∞ exactly when x is neither infinity, that is, when x is a real.
-/
import proofs.«162712_g59227599011857_cont_9to1_m_754_15_alg».proof.Pre_finite_inputs
import proofs.«162712_g59227599011857_cont_9to1_m_754_15_alg».proof.Proof.Gen.Pre_finite_inputs
import Idealize.ShloMosaic.Lib.ReduceAll
import Idealize.ShloMosaic.Lib.ValueIdx
import Idealize.ShloMosaic.PureOps.Ideal

noncomputable section

open Idealize.ShloMosaic Idealize.ShloMosaic.ValueIdx

namespace Cert.FiniteInputs

open Cert.Pre_finite_inputs

/-- An extended real whose absolute value compares below the pattern of +∞ is a real number. -/
theorem real_of_abs_lt_top (x : EReal)
    (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  induction x using EReal.rec with
  | bot => exact absurd h (by simp [Ideal.cmp])
  | top => exact absurd h (by simp [Ideal.cmp])
  | coe r => exact ⟨r, rfl⟩

instance : Subsingleton S_.Idx := ⟨fun a b => funext fun d => d.elim0⟩

/-- Under the precondition all four arrays are arrays of reals. -/
theorem finite_of_pre (x0 : FVec Ideal S10000x128 .f32) (x1 : FVec Ideal S10000x10000 .f32)
    (x2 : FVec Ideal S128x128 .f32) (x3 : FVec Ideal S128 .f32)
    (h : fn (F := Ideal) x0 x1 x2 x3 = fun _ => 1#1) :
    (∀ i, ∃ r : ℝ, x0 i = r) ∧ (∀ i, ∃ r : ℝ, x1 i = r) ∧ (∀ i, ∃ r : ℝ, x2 i = r) ∧ (∀ i, ∃ r : ℝ, x3 i = r) := by
  have h0 := congrFun h ix0
  dsimp only [fn, fn_part1] at h0
  obtain ⟨h012, e3⟩ := IntOp.andi_eq_one.1 h0
  obtain ⟨h01, e2⟩ := IntOp.andi_eq_one.1 h012
  obtain ⟨e0, e1⟩ := IntOp.andi_eq_one.1 h01
  exact ⟨fun i => real_of_abs_lt_top (x0 i) (Host.reduce_andi_all _ _ _ _ _ e0 i),
    fun i => real_of_abs_lt_top (x1 i) (Host.reduce_andi_all _ _ _ _ _ e1 i),
    fun i => real_of_abs_lt_top (x2 i) (Host.reduce_andi_all _ _ _ _ _ e2 i),
    fun i => real_of_abs_lt_top (x3 i) (Host.reduce_andi_all _ _ _ _ _ e3 i)⟩

end Cert.FiniteInputs

end
-- ==== Proof.lean ====
/-
  A graph-convolution layer, out = relu(adj · (x · Wᵀ + b)), computed by a kernel as ONE chain of two matrix
  products over widened operands, against the textbook order.

  The kernel, at its first grid point, writes into two scratch buffers the features widened by a column of ones,
  [x | 1 | 0] (10000 × 256), and the transposed weights widened by the bias row, [Wᵀ ; b ; 0] (256 × 128); at every
  one of its 25 grid points it multiplies a block of 400 rows of the adjacency by the first buffer, the result by the
  second, and takes the positive part. On the extended reals the roundings to the narrower float format are the
  identity and each product is the plain sum over its contracted axis, so the kernel's result array is
  max(Σ_p (Σ_n adj(r,n)·[x|1|0](n,p))·[Wᵀ;b;0](p,j), 0) (Final.lean, over Sweep.lean's induction on the grid point).
  The reference's is max(Σ_n adj(r,n)·(Σ_k x(n,k)·W(j,k) + b(j)), 0) (RefLayer.lean). The ones column contributes
  (Σ_n adj(r,n))·b(j), the zero columns nothing, and the two are equal by distributivity and an exchange of the two
  sums (Spec.lean) — a law that needs every entry finite, which is what the precondition says (Finite.lean).
  The three frame claims are the generated frame runs; the idealization rewrote nothing.
-/
import proofs.«162712_g59227599011857_cont_9to1_m_754_15_alg».proof.Defs
import proofs.«162712_g59227599011857_cont_9to1_m_754_15_alg».proof.Proof.Gen.Kernel
import proofs.«162712_g59227599011857_cont_9to1_m_754_15_alg».proof.Proof.Gen.Kernel.Skeleton
import proofs.«162712_g59227599011857_cont_9to1_m_754_15_alg».proof.Proof.Gen.Kernel.Launch
import proofs.«162712_g59227599011857_cont_9to1_m_754_15_alg».proof.Proof.Gen.Kernel.Points
import proofs.«162712_g59227599011857_cont_9to1_m_754_15_alg».proof.Proof.Gen.Kernel.Frame
import proofs.«162712_g59227599011857_cont_9to1_m_754_15_alg».proof.Proof.Gen.KernelIdeal
import proofs.«162712_g59227599011857_cont_9to1_m_754_15_alg».proof.Proof.Gen.KernelIdeal.Skeleton
import proofs.«162712_g59227599011857_cont_9to1_m_754_15_alg».proof.Proof.Gen.KernelIdeal.Launch
import proofs.«162712_g59227599011857_cont_9to1_m_754_15_alg».proof.Proof.Gen.KernelIdeal.Points
import proofs.«162712_g59227599011857_cont_9to1_m_754_15_alg».proof.Proof.Gen.KernelIdeal.Frame
import proofs.«162712_g59227599011857_cont_9to1_m_754_15_alg».proof.Proof.Gen.ReferenceIdeal
import proofs.«162712_g59227599011857_cont_9to1_m_754_15_alg».proof.Proof.Gen.Pre_finite_inputs
import proofs.«162712_g59227599011857_cont_9to1_m_754_15_alg».proof.Proof.Gen.KernelIdeal.Value
import proofs.«162712_g59227599011857_cont_9to1_m_754_15_alg».proof.Proof.Gen.ReferenceIdeal.Run
import proofs.«162712_g59227599011857_cont_9to1_m_754_15_alg».proof.Proof.Gen.ReferenceIdeal.Read
import proofs.«162712_g59227599011857_cont_9to1_m_754_15_alg».proof.Proof.Final
import proofs.«162712_g59227599011857_cont_9to1_m_754_15_alg».proof.Proof.RefLayer
import proofs.«162712_g59227599011857_cont_9to1_m_754_15_alg».proof.Proof.Finite
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On finite arguments the kernel's single chain over the widened operands and the reference's textbook order give
    the same array. -/
theorem algebraic : Cert.algebraic_KernelIdeal_ReferenceIdeal := by
  intro m ρ m' ρ' hpre hagree
  refine ⟨fun c => Cert.KernelIdeal.Layer.result m c, Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.Layer.reference_eq_layer,
    (hagree c).1, (hagree c).2.1, (hagree c).2.2.1, (hagree c).2.2.2]
  obtain ⟨h0, h1, h2, h3⟩ := Cert.FiniteInputs.finite_of_pre _ _ _ _ (hpre c)
  funext i
  exact (Cert.GcnSpec.padded_eq_layer _ _ _ _ h0 h1 h2 h3 (i 0) (i 1)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
